-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x300 : Shape := ⟨2, ![8192, 300]⟩
abbrev S8192x512 : Shape := ⟨2, ![8192, 512]⟩
abbrev S4x1024x1024 : Shape := ⟨3, ![4, 1024, 1024]⟩
abbrev S4x1024x300 : Shape := ⟨3, ![4, 1024, 300]⟩
abbrev S4x1024x512 : Shape := ⟨3, ![4, 1024, 512]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x300 : S_.BroadcastsInDim S8192x300 (![] : Fin 0 → Fin S8192x300.rank)
  reducesTo_S8192x300_S_d0_1 : S8192x300.ReducesTo [0, 1] S_
  bcast_S_S8192x512 : S_.BroadcastsInDim S8192x512 (![] : Fin 0 → Fin S8192x512.rank)
  reducesTo_S8192x512_S_d0_1 : S8192x512.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x300 : S_.BroadcastsInDim S4x1024x300 (![] : Fin 0 → Fin S4x1024x300.rank)
  reducesTo_S4x1024x300_S_d0_1_2 : S4x1024x300.ReducesTo [0, 1, 2] S_
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part3 {F : FTy → Type} [FloatOps F] (main_v48 : IVec S_ 1) (main_v49 : FVec F S4x1024 .f32) (main_v50 : FVec F S4x1024 .f32) : IVec S_ 1 :=
  let main_v51 : IVec S4x1024 1 := cmpf .olt main_v49 main_v50
  let main_c_19 : IVec S_ 1 := constantI S_ 1 1#1
  let main_v52 : IVec S_ 1 := (fun x v => Host.reduce IntOp.andi x v reducesTo_S4x1024_S_d0_1 h_S_) main_v51 main_c_19
  let main_v53 : IVec S_ 1 := andi main_v48 main_v52
  main_v53

def fn_part2 {F : FTy → Type} [FloatOps F] (main_arg7 : FVec F S4x1024 .f32) (main_arg8 : FVec F S4x1024 .f32) (main_arg9 : FVec F S4x1024 .f32) (main_arg10 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_v44 : FVec F S4x1024 .f32 := Host.absf main_arg9
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  let main_v49 : FVec F S4x1024 .f32 := Host.absf main_arg10
  let main_cst_18 : FVec F S_ .f32 := constant S_ .f32 0x7F800000#32
  let main_v50 : FVec F S4x1024 .f32 := broadcastInDim S4x1024 ![] bcast_S_S4x1024 main_cst_18
  fn_part3 (F := F) main_v48 main_v49 main_v50

def fn_part1 {F : FTy → Type} [FloatOps F] (main_arg4 : FVec F S4x1024x1024 .f32) (main_arg5 : FVec F S4x1024x300 .f32) (main_arg6 : FVec F S4x1024x512 .f32) (main_arg7 : FVec F S4x1024 .f32) (main_arg8 : FVec F S4x1024 .f32) (main_arg9 : FVec F S4x1024 .f32) (main_arg10 : FVec F S4x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024x300 .f32 := Host.absf main_arg5
  let main_cst_8 : FVec F S_ .f32 := constant S_ .f32 0x7F800000#32
  let main_v25 : FVec F S4x1024x300 .f32 := broadcastInDim S4x1024x300 ![] bcast_S_S4x1024x300 main_cst_8
  let main_v26 : IVec S4x1024x300 1 := cmpf .olt main_v24 main_v25
  let main_c_9 : IVec S_ 1 := constantI S_ 1 1#1
  let main_v27 : IVec S_ 1 := (fun x v => Host.reduce IntOp.andi x v reducesTo_S4x1024x300_S_d0_1_2 h_S_) main_v26 main_c_9
  let main_v28 : IVec S_ 1 := andi main_v23 main_v27
  let main_v29 : FVec F S4x1024x512 .f32 := Host.absf main_arg6
  let main_cst_10 : FVec F S_ .f32 := constant S_ .f32 0x7F800000#32
  let main_v30 : FVec F S4x1024x512 .f32 := broadcastInDim S4x1024x512 ![] bcast_S_S4x1024x512 main_cst_10
  let main_v31 : IVec S4x1024x512 1 := cmpf .olt main_v29 main_v30
  let main_c_11 : IVec S_ 1 := constantI S_ 1 1#1
  let main_v32 : IVec S_ 1 := (fun x v => Host.reduce IntOp.andi x v reducesTo_S4x1024x512_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x300 .f32) (main_arg3 : FVec F S8192x512 .f32) (main_arg4 : FVec F S4x1024x1024 .f32) (main_arg5 : FVec F S4x1024x300 .f32) (main_arg6 : FVec F S4x1024x512 .f32) (main_arg7 : FVec F S4x1024 .f32) (main_arg8 : FVec F S4x1024 .f32) (main_arg9 : FVec F S4x1024 .f32) (main_arg10 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x300 .f32 := Host.absf main_arg2
  let main_cst_2 : FVec F S_ .f32 := constant S_ .f32 0x7F800000#32
  let main_v10 : FVec F S8192x300 .f32 := broadcastInDim S8192x300 ![] bcast_S_S8192x300 main_cst_2
  let main_v11 : IVec S8192x300 1 := cmpf .olt main_v9 main_v10
  let main_c_3 : IVec S_ 1 := constantI S_ 1 1#1
  let main_v12 : IVec S_ 1 := (fun x v => Host.reduce IntOp.andi x v reducesTo_S8192x300_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S8192x300 : Shape := ⟨2, ![8192, 300]⟩
abbrev S8192x512 : Shape := ⟨2, ![8192, 512]⟩
abbrev S4x1024x1024 : Shape := ⟨3, ![4, 1024, 1024]⟩
abbrev S4x1024x300 : Shape := ⟨3, ![4, 1024, 300]⟩
abbrev S4x1024x512 : Shape := ⟨3, ![4, 1024, 512]⟩
abbrev S4x1024 : Shape := ⟨2, ![4, 1024]⟩
abbrev S1024x4x1024 : Shape := ⟨3, ![1024, 4, 1024]⟩
abbrev S1024x4096 : Shape := ⟨2, ![1024, 4096]⟩
abbrev S300x4x1024 : Shape := ⟨3, ![300, 4, 1024]⟩
abbrev S300x4096 : Shape := ⟨2, ![300, 4096]⟩
abbrev S512x4x1024 : Shape := ⟨3, ![512, 4, 1024]⟩
abbrev S512x4096 : Shape := ⟨2, ![512, 4096]⟩
abbrev S1x4096 : Shape := ⟨2, ![1, 4096]⟩
abbrev S128x1024 : Shape := ⟨2, ![128, 1024]⟩
abbrev S128x300 : Shape := ⟨2, ![128, 300]⟩
abbrev S128x512 : Shape := ⟨2, ![128, 512]⟩
abbrev S128x4096 : Shape := ⟨2, ![128, 4096]⟩

abbrev nBuf : Space → Nat
  | .hbm => 26
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x300, .f32⟩
  | .hbm, ⟨3, _⟩ => ⟨S8192x512, .f32⟩
  | .hbm, ⟨4, _⟩ => ⟨S4x1024x1024, .f32⟩
  | .hbm, ⟨5, _⟩ => ⟨S4x1024x300, .f32⟩
  | .hbm, ⟨6, _⟩ => ⟨S4x1024x512, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1024x4x1024, .f32⟩
  | .hbm, ⟨12, _⟩ => ⟨S1024x4096, .f32⟩
  | .hbm, ⟨13, _⟩ => ⟨S1024x4096, .bf16⟩
  | .hbm, ⟨14, _⟩ => ⟨S300x4x1024, .f32⟩
  | .hbm, ⟨15, _⟩ => ⟨S300x4096, .f32⟩
  | .hbm, ⟨16, _⟩ => ⟨S300x4096, .bf16⟩
  | .hbm, ⟨17, _⟩ => ⟨S512x4x1024, .f32⟩
  | .hbm, ⟨18, _⟩ => ⟨S512x4096, .f32⟩
  | .hbm, ⟨19, _⟩ => ⟨S512x4096, .bf16⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S1x4096, .f32⟩
  | .hbm, ⟨24, _⟩ => ⟨S8192x1024, .f32⟩
  | .hbm, ⟨25, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x300, .f32⟩
  | .local _ .vmem, ⟨5, _⟩ => ⟨S128x300, .f32⟩
  | .local _ .vmem, ⟨6, _⟩ => ⟨S128x512, .f32⟩
  | .local _ .vmem, ⟨7, _⟩ => ⟨S128x512, .f32⟩
  | .local _ .vmem, ⟨8, _⟩ => ⟨S1024x4096, .bf16⟩
  | .local _ .vmem, ⟨9, _⟩ => ⟨S300x4096, .bf16⟩
  | .local _ .vmem, ⟨10, _⟩ => ⟨S512x4096, .bf16⟩
  | .local _ .vmem, ⟨11, _⟩ => ⟨S1x4096, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  transposes_S4x1024x300_S300x4x1024_2_0_1 : S4x1024x300.Transposes [2, 0, 1] S300x4x1024
  shapeCasts_S300x4x1024_S300x4096 : S300x4x1024.ShapeCasts S300x4096
  transposes_S4x1024x512_S512x4x1024_2_0_1 : S4x1024x512.Transposes [2, 0, 1] S512x4x1024
  shapeCasts_S512x4x1024_S512x4096 : S512x4x1024.ShapeCasts S512x4096
  shapeCasts_S4x1024_S1x4096 : S4x1024.ShapeCasts S1x4096
  inb_S128x1024_S128x1024_0_0 : ∀ a, (![0, 0] : Fin 2 → Nat) a + S128x1024.size a ≤ S128x1024.size a
  h_S128x1024 : 0 < S128x1024.numel
  inb_S128x300_S128x300_0_0 : ∀ a, (![0, 0] : Fin 2 → Nat) a + S128x300.size a ≤ S128x300.size a
  h_S128x300 : 0 < S128x300.numel
  inb_S128x512_S128x512_0_0 : ∀ a, (![0, 0] : Fin 2 → Nat) a + S128x512.size a ≤ S128x512.size a
  h_S128x512 : 0 < S128x512.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S300x4096_S300x4096_0_0 : ∀ a, (![0, 0] : Fin 2 → Nat) a + S300x4096.size a ≤ S300x4096.size a
  h_S300x4096 : 0 < S300x4096.numel
  shapeCasts_S300x4096_S300x4096 : S300x4096.ShapeCasts S300x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  dot_S128x300_S300x4096_S128x4096_1_0_0_1_n_n_wf : DotDims.WF S128x300 S300x4096 S128x4096 [1] [0] [0] [1] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x300.size a ≤ S8192x300.size a
  hwx0_2 : ∀ i : grid0.Coords, EltTy.bits .f32 = 32 ∨ (Rect.block (s := S8192x300) S128x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S8192x512.size a
  hwx0_3 : ∀ i : grid0.Coords, EltTy.bits .f32 = 32 ∨ (Rect.block (s := S8192x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x4096.size a ≤ S300x4096.size a
  hwx0_5 : ∀ i : grid0.Coords, EltTy.bits .bf16 = 32 ∨ (Rect.block (s := S300x4096) S300x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S512x4096.size a
  hwx0_6 : ∀ i : grid0.Coords, EltTy.bits .bf16 = 32 ∨ (Rect.block (s := S512x4096) S512x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x300_S300x4096_S128x4096_1_0_0_1_n_n : DotDims S128x300 S300x4096 S128x4096 where
  lhsContracting := [1]
  rhsContracting := [0]
  lhsNonContracting := [0]
  rhsNonContracting := [1]
  lhsBatch := []
  rhsBatch := []
  wf := dot_S128x300_S300x4096_S128x4096_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S300x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x300 : Shape := ⟨2, ![8192, 300]⟩
abbrev S8192x512 : Shape := ⟨2, ![8192, 512]⟩
abbrev S4x1024x1024 : Shape := ⟨3, ![4, 1024, 1024]⟩
abbrev S4x1024x300 : Shape := ⟨3, ![4, 1024, 300]⟩
abbrev S4x1024x512 : Shape := ⟨3, ![4, 1024, 512]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x300, .f32⟩
  | .hbm, ⟨3, _⟩ => ⟨S8192x512, .f32⟩
  | .hbm, ⟨4, _⟩ => ⟨S4x1024x1024, .f32⟩
  | .hbm, ⟨5, _⟩ => ⟨S4x1024x300, .f32⟩
  | .hbm, ⟨6, _⟩ => ⟨S4x1024x512, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S8192x4x1024, .f32⟩
  | .hbm, ⟨12, _⟩ => ⟨S8192x4x1024, .f32⟩
  | .hbm, ⟨13, _⟩ => ⟨S8192x4x1024, .f32⟩
  | .hbm, ⟨14, _⟩ => ⟨S8192x4x1024, .f32⟩
  | .hbm, ⟨15, _⟩ => ⟨S8192x4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S1x4x1024, .f32⟩
  | .hbm, ⟨20, _⟩ => ⟨S8192x4x1024, .f32⟩
  | .hbm, ⟨21, _⟩ => ⟨S8192x4x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []
  dot_S8192x300_S4x1024x300_S8192x4x1024_1_2_0_01_n_n_wf : DotDims.WF S8192x300 S4x1024x300 S8192x4x1024 [1] [2] [0] [0, 1] [] []
  dot_S8192x512_S4x1024x512_S8192x4x1024_1_2_0_01_n_n_wf : DotDims.WF S8192x512 S4x1024x512 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf
def dot_S8192x300_S4x1024x300_S8192x4x1024_1_2_0_01_n_n : DotDims S8192x300 S4x1024x300 S8192x4x1024 where
  lhsContracting := [1]
  rhsContracting := [2]
  lhsNonContracting := [0]
  rhsNonContracting := [0, 1]
  lhsBatch := []
  rhsBatch := []
  wf := dot_S8192x300_S4x1024x300_S8192x4x1024_1_2_0_01_n_n_wf
def dot_S8192x512_S4x1024x512_S8192x4x1024_1_2_0_01_n_n : DotDims S8192x512 S4x1024x512 S8192x4x1024 where
  lhsContracting := [1]
  rhsContracting := [2]
  lhsNonContracting := [0]
  rhsNonContracting := [0, 1]
  lhsBatch := []
  rhsBatch := []
  wf := dot_S8192x512_S4x1024x512_S8192x4x1024_1_2_0_01_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LstmSpec.lean ====
/-
  One step of an LSTM cell with three inputs, as functions of its eleven arrays, at the exact (extended-real) values.

  For a batch row b, a gate g (0 = input, 1 = forget, 2 = output, 3 = candidate) and a hidden unit o, the gate's
  pre-activation is

      pre(b, g, o) = ((Σ_k h(b,k)·Wh(g,o,k) + Σ_k x(b,k)·Wx(g,o,k)) + Σ_k a(b,k)·Wa(g,o,k))
                       + (((bl + bl2) + bl3) + bp)(g,o),

  the new cell state is  σ(pre(b,1,o))·c(b,o) + σ(pre(b,0,o))·tanh(pre(b,3,o)),  and the new hidden state is
  σ(pre(b,2,o))·tanh(new cell state), with σ(y) = 1 / (1 + e^(-y)).  The grouping of the sums is the one both
  programs use, so no law of the extended reals beyond rewriting equal terms is needed.

  The same pre-activation is also what one gets from a block of rows and the weights laid out flat, K × 4096, with
  column n = g·1024 + o holding gate g's unit o:  `preFlat`, and `preFlat_eq_pre` joins the two forms.
-/
import Idealize.ShloMosaic.Lib.ValueIdx
import Idealize.ShloMosaic.PureOps.Ideal.Laws
import proofs.«124917_j83150566850652_1_alg».proof.Proof.LibRowDot

noncomputable section

open scoped BigOperators

namespace Cert.Lstm

open Idealize.ShloMosaic Idealize.ShloMosaic.ValueIdx Cert.RowDot

/-- An r × c table of extended reals. -/
abbrev Tab2 (r c : Nat) : Type := (⟨2, ![r, c]⟩ : Shape).Idx → EReal
/-- A p × r × c table of extended reals. -/
abbrev Tab3 (p r c : Nat) : Type := (⟨3, ![p, r, c]⟩ : Shape).Idx → EReal

/-- The float pattern of 1.0 denotes the real number one. -/
theorem ofBits_one_f32 : Ideal.ofBits .f32 0x3F800000#32 = 1 := by
  simp [Ideal.ofBits, Ideal.ieee, -EReal.coe_mul]; norm_num

/-- The logistic function spelled with a quotient, a sum, an exponential and a negation is the logistic function. -/
theorem logistic_spelled (y : EReal) : Ideal.div 1 (1 + Ideal.exp (-y)) = Ideal.logistic y := rfl

section
variable (h c : Tab2 8192 1024) (x : Tab2 8192 300) (a : Tab2 8192 512)
  (Wh : Tab3 4 1024 1024) (Wx : Tab3 4 1024 300) (Wa : Tab3 4 1024 512) (bl bl2 bl3 bp : Tab2 4 1024)

/-- The four biases of gate g's unit o, added in the order both programs add them. -/
def biasSum (g : Fin 4) (o : Fin 1024) : EReal := ((bl (ix2 g o) + bl2 (ix2 g o)) + bl3 (ix2 g o)) + bp (ix2 g o)

/-- Gate g's pre-activation for batch row b and hidden unit o. -/
def pre (b : Fin 8192) (g : Fin 4) (o : Fin 1024) : EReal :=
  (((∑ k : Fin 1024, h (ix2 b k) * Wh (ix3 g o k)) + (∑ k : Fin 300, x (ix2 b k) * Wx (ix3 g o k)))
      + (∑ k : Fin 512, a (ix2 b k) * Wa (ix3 g o k)))
    + biasSum bl bl2 bl3 bp g o

/-- The new cell state: forget gate times the old state plus input gate times the candidate. -/
def cell (i : (⟨2, ![8192, 1024]⟩ : Shape).Idx) : EReal :=
  Ideal.logistic (pre h x a Wh Wx Wa bl bl2 bl3 bp (i 0) 1 (i 1)) * c i
    + Ideal.logistic (pre h x a Wh Wx Wa bl bl2 bl3 bp (i 0) 0 (i 1)) * Ideal.tanh (pre h x a Wh Wx Wa bl bl2 bl3 bp (i 0) 3 (i 1))

/-- The new hidden state: output gate times tanh of the new cell state. -/
def hidden (i : (⟨2, ![8192, 1024]⟩ : Shape).Idx) : EReal :=
  Ideal.logistic (pre h x a Wh Wx Wa bl bl2 bl3 bp (i 0) 2 (i 1)) * Ideal.tanh (cell h c x a Wh Wx Wa bl bl2 bl3 bp i)

end

/-- The pre-activation from a block of 128 rows and the weights laid out flat: row p of each input block times its
    K × 4096 weight matrix at column n, the three products added left to right, plus the flat bias at column n. -/
def preFlat (hb : Tab2 128 1024) (xb : Tab2 128 300) (ab : Tab2 128 512) (whr : Tab2 1024 4096) (wxr : Tab2 300 4096)
    (war : Tab2 512 4096) (bias : Tab2 1 4096) (p : Fin 128) (n : Fin 4096) : EReal :=
  ((rowDot (rowOf hb p) whr n + rowDot (rowOf xb p) wxr n) + rowDot (rowOf ab p) war n) + bias (ix2 0 n)

/-- When row p of the blocks is row b of the inputs, column n of the flat weights is gate g's unit o of the stacked
    weights, and the flat bias at n is the bias sum at (g, o), the flat form is the pre-activation. -/
theorem preFlat_eq_pre (h : Tab2 8192 1024) (x : Tab2 8192 300) (a : Tab2 8192 512)
    (Wh : Tab3 4 1024 1024) (Wx : Tab3 4 1024 300) (Wa : Tab3 4 1024 512) (bl bl2 bl3 bp : Tab2 4 1024)
    (hb : Tab2 128 1024) (xb : Tab2 128 300) (ab : Tab2 128 512) (whr : Tab2 1024 4096) (wxr : Tab2 300 4096)
    (war : Tab2 512 4096) (bias : Tab2 1 4096) (p : Fin 128) (n : Fin 4096) (b : Fin 8192) (g : Fin 4) (o : Fin 1024)
    (e_h : ∀ k, hb (ix2 p k) = h (ix2 b k)) (e_x : ∀ k, xb (ix2 p k) = x (ix2 b k)) (e_a : ∀ k, ab (ix2 p k) = a (ix2 b k))
    (e_wh : ∀ k, whr (ix2 k n) = Wh (ix3 g o k)) (e_wx : ∀ k, wxr (ix2 k n) = Wx (ix3 g o k))
    (e_wa : ∀ k, war (ix2 k n) = Wa (ix3 g o k)) (e_b : bias (ix2 0 n) = biasSum bl bl2 bl3 bp g o) :
    preFlat hb xb ab whr wxr war bias p n = pre h x a Wh Wx Wa bl bl2 bl3 bp b g o := by
  unfold preFlat pre rowDot rowOf
  rw [e_b]
  simp only [e_h, e_x, e_a, e_wh, e_wx, e_wa]

end Cert.Lstm

end
-- ==== Proof.BodyGate.lean ====
/-
  What the kernel body computes before the gates, read at an index.

  From a block of 128 rows of each input (h: 128 × 1024, x: 128 × 300, a: 128 × 512), the three flat weight matrices
  (K × 4096) and the flat bias (1 × 4096), the body forms  ((h·Whr + x·Wxr) + a·War) + bias  as a 128 × 4096 array.
  Each product is a matrix product into a zero accumulator, so its entry (p, n) is row p of the block times the
  weight matrix at column n; the narrowing of the operands to bf16 is the identity on exact values; the bias row
  is spread over the 128 rows.  Entry (p, n) of the whole is therefore `preFlat` at (p, n).
-/
import proofs.«124917_j83150566850652_1_alg».proof.Proof.Gen.KernelIdeal.Skeleton
import proofs.«124917_j83150566850652_1_alg».proof.Proof.LstmSpec
import Idealize.ShloMosaic.Lib.Pipeline.Value

noncomputable section

open scoped BigOperators

namespace Cert.Lstm.Body

open Cert.KernelIdeal Cert.KernelIdeal.Gen Cert.Lstm Cert.RowDot
open Idealize.ShloMosaic Idealize.ShloMosaic.ValueIdx

/-- The product of a 128 × 1024 block with the 1024 × 4096 weights, into zero, at an entry. -/
theorem mm_h (l : FVec Ideal S128x1024 .bf16) (r : FVec Ideal S1024x4096 .bf16) (j : S128x4096.Idx) :
    matmul dot_S128x1024_S1024x4096_S128x4096_1_0_0_1_n_n none l r (constant S128x4096 .f32 0x00000000#32) j
      = rowDot (rowOf l (j 0)) r (j 1) :=
  matmul_plain_zero_apply (M := 128) (K := 1024) (N := 4096) none l r j

/-- The product of a 128 × 300 block with the 300 × 4096 weights, into zero, at an entry. -/
theorem mm_x (l : FVec Ideal S128x300 .bf16) (r : FVec Ideal S300x4096 .bf16) (j : S128x4096.Idx) :
    matmul dot_S128x300_S300x4096_S128x4096_1_0_0_1_n_n none l r (constant S128x4096 .f32 0x00000000#32) j
      = rowDot (rowOf l (j 0)) r (j 1) :=
  matmul_plain_zero_apply (M := 128) (K := 300) (N := 4096) none l r j

/-- The product of a 128 × 512 block with the 512 × 4096 weights, into zero, at an entry. -/
theorem mm_a (l : FVec Ideal S128x512 .bf16) (r : FVec Ideal S512x4096 .bf16) (j : S128x4096.Idx) :
    matmul dot_S128x512_S512x4096_S128x4096_1_0_0_1_n_n none l r (constant S128x4096 .f32 0x00000000#32) j
      = rowDot (rowOf l (j 0)) r (j 1) :=
  matmul_plain_zero_apply (M := 128) (K := 512) (N := 4096) none l r j

/-- The 1 × 4096 bias row spread over 128 rows reads, at (p, n), the row's entry n. -/
theorem bias_spread (v : S1x4096.Idx → EReal) (j : S128x4096.Idx) :
    broadcastTo S128x4096 v broadcasts_S1x4096_S128x4096 j = v (ix2 0 (j 1)) :=
  broadcastTo_apply v broadcasts_S1x4096_S128x4096 j (ix2 0 (j 1)) (fun a => match a with
    | ⟨0, _⟩ => by show (0 : Nat) = if (1 : Nat) = 1 then 0 else (j 0).val; rw [if_pos rfl]
    | ⟨1, _⟩ => by show (j 1).val = if (4096 : Nat) = 1 then 0 else (j 1).val; rw [if_neg (by decide)])

variable (P0 : Vec Ideal S128x1024 .f32) (P1 : Vec Ideal S128x300 .f32) (P2 : Vec Ideal S128x512 .f32)
  (P3 : Vec Ideal S1024x4096 .bf16) (P4 : Vec Ideal S300x4096 .bf16) (P5 : Vec Ideal S512x4096 .bf16) (P6 : Vec Ideal S1x4096 .f32)

/-- The body's pre-activation as its tree of vector operations. -/
theorem pay1_tree : k0_pay1 (F := Ideal) P0 P1 P2 P3 P4 P5 P6 =
    addf (addf (addf
      (matmul dot_S128x1024_S1024x4096_S128x4096_1_0_0_1_n_n none (truncf .bf16 P0 bitsLt_bf16_f32 : FVec Ideal S128x1024 .bf16)
        (shapeCast S1024x4096 P3 shapeCasts_S1024x4096_S1024x4096 : FVec Ideal S1024x4096 .bf16) (constant S128x4096 .f32 0x00000000#32))
      (matmul dot_S128x300_S300x4096_S128x4096_1_0_0_1_n_n none (truncf .bf16 P1 bitsLt_bf16_f32 : FVec Ideal S128x300 .bf16)
        (shapeCast S300x4096 P4 shapeCasts_S300x4096_S300x4096 : FVec Ideal S300x4096 .bf16) (constant S128x4096 .f32 0x00000000#32)))
      (matmul dot_S128x512_S512x4096_S128x4096_1_0_0_1_n_n none (truncf .bf16 P2 bitsLt_bf16_f32 : FVec Ideal S128x512 .bf16)
        (shapeCast S512x4096 P5 shapeCasts_S512x4096_S512x4096 : FVec Ideal S512x4096 .bf16) (constant S128x4096 .f32 0x00000000#32)))
      (broadcastTo S128x4096 (shapeCast S1x4096 P6 shapeCasts_S1x4096_S1x4096 : FVec Ideal S1x4096 .f32) broadcasts_S1x4096_S128x4096 : FVec Ideal S128x4096 .f32) := rfl

/-- Entry (p, n) of the body's pre-activation is the flat form at (p, n). -/
theorem pay1_apply (j : S128x4096.Idx) :
    k0_pay1 (F := Ideal) P0 P1 P2 P3 P4 P5 P6 j = preFlat P0 P1 P2 P3 P4 P5 P6 (j 0) (j 1) := by
  rw [pay1_tree, addf_apply, addf_apply, addf_apply, mm_h, mm_x, mm_a, bias_spread,
    shapeCast_self, shapeCast_self, shapeCast_self, shapeCast_self]
  rfl

end Cert.Lstm.Body

end
-- ==== Proof.GateBlock.lean ====
/-
  One block of 128 rows: what the kernel body leaves in its two output blocks is the LSTM step at the array index
  the block index sits at.

  The body's output blocks are pointwise functions of its pre-activation (a 128 × 4096 array) read at four columns,
  o, o + 1024, o + 2048 and o + 3072, and of the block of the old cell state.  When row y0 of the input blocks is row
  i0 of the inputs, column y1 is hidden unit i1, and the flat weights and bias are the stacked ones with column
  g·1024 + o holding gate g's unit o, column o + g·1024 of the pre-activation is gate g's pre-activation of unit o
  (BodyGate, then `preFlat_eq_pre`), and the two blocks read, at y, the new hidden and cell states at i.
-/
import proofs.«124917_j83150566850652_1_alg».proof.Proof.Gen.KernelIdeal.Value
import proofs.«124917_j83150566850652_1_alg».proof.Proof.BodyGate

noncomputable section

open scoped BigOperators

namespace Cert.Lstm.Block

open Cert.KernelIdeal Cert.KernelIdeal.Gen Cert.KernelIdeal.Value Cert.Lstm Cert.Lstm.Body
open Idealize.ShloMosaic Idealize.ShloMosaic.ValueIdx

variable (h c : Tab2 8192 1024) (x : Tab2 8192 300) (a : Tab2 8192 512)
  (Wh : Tab3 4 1024 1024) (Wx : Tab3 4 1024 300) (Wa : Tab3 4 1024 512) (bl bl2 bl3 bp : Tab2 4 1024)
variable (P0 : Vec Ideal S128x1024 .f32) (P1 : Vec Ideal S128x300 .f32) (P2 : Vec Ideal S128x512 .f32)
  (P3 : Vec Ideal S1024x4096 .bf16) (P4 : Vec Ideal S300x4096 .bf16) (P5 : Vec Ideal S512x4096 .bf16)
  (P6 : Vec Ideal S1x4096 .f32) (P7 : Vec Ideal S128x1024 .f32)
variable (y : S128x1024.Idx) (i : (⟨2, ![8192, 1024]⟩ : Shape).Idx)

/-- Block index y of the blocks P sits at array index i of the arrays: same column, row y0 of the input blocks is
    row i0 of the inputs, the old cell state agrees, and the flat weights and bias hold the stacked ones gate major. -/
structure SitsAt : Prop where
  col : (y 1).val = (i 1).val
  row_h : ∀ k, P0 (ix2 (y 0) k) = h (ix2 (i 0) k)
  row_x : ∀ k, P1 (ix2 (y 0) k) = x (ix2 (i 0) k)
  row_a : ∀ k, P2 (ix2 (y 0) k) = a (ix2 (i 0) k)
  old_c : P7 y = c i
  w_h : ∀ (g : Fin 4) (n : Fin 4096), n.val = g.val * 1024 + (i 1).val → ∀ k, P3 (ix2 k n) = Wh (ix3 g (i 1) k)
  w_x : ∀ (g : Fin 4) (n : Fin 4096), n.val = g.val * 1024 + (i 1).val → ∀ k, P4 (ix2 k n) = Wx (ix3 g (i 1) k)
  w_a : ∀ (g : Fin 4) (n : Fin 4096), n.val = g.val * 1024 + (i 1).val → ∀ k, P5 (ix2 k n) = Wa (ix3 g (i 1) k)
  bias : ∀ (g : Fin 4) (n : Fin 4096), n.val = g.val * 1024 + (i 1).val → P6 (ix2 0 n) = biasSum bl bl2 bl3 bp g (i 1)

variable {h c x a Wh Wx Wa bl bl2 bl3 bp P0 P1 P2 P3 P4 P5 P6 P7 y i}

/-- Column g·1024 + i1 of the body's pre-activation, in row y0, is gate g's pre-activation at (i0, i1). -/
theorem gate_at (H : SitsAt h c x a Wh Wx Wa bl bl2 bl3 bp P0 P1 P2 P3 P4 P5 P6 P7 y i) (g : Fin 4) (j : S128x4096.Idx) (hj0 : j 0 = y 0)
    (hj1 : (j 1).val = g.val * 1024 + (i 1).val) :
    k0_pay1 (F := Ideal) P0 P1 P2 P3 P4 P5 P6 j = pre h x a Wh Wx Wa bl bl2 bl3 bp (i 0) g (i 1) := by
  rw [pay1_apply, hj0]
  exact preFlat_eq_pre h x a Wh Wx Wa bl bl2 bl3 bp P0 P1 P2 P3 P4 P5 P6 (y 0) (j 1) (i 0) g (i 1) H.row_h H.row_x H.row_a
    (H.w_h g (j 1) hj1) (H.w_x g (j 1) hj1) (H.w_a g (j 1) hj1) (H.bias g (j 1) hj1)

/-- The hidden-state block at y is the new hidden state at i. -/
theorem hidden_block (H : SitsAt h c x a Wh Wx Wa bl bl2 bl3 bp P0 P1 P2 P3 P4 P5 P6 P7 y i) :
    E8 (F := Ideal) P0 P1 P2 P3 P4 P5 P6 P7 y = hidden h c x a Wh Wx Wa bl bl2 bl3 bp i := by
  have hc := H.col
  have e2 : ix8_2 y = y := funext fun d => by match d with | ⟨0, _⟩ => rfl | ⟨1, _⟩ => rfl
  unfold E8
  rw [gate_at H 2 (ix8_0 y) rfl (by show (y 1).val + 2048 = 2 * 1024 + (i 1).val; omega),
    gate_at H 1 (ix8_1 y) rfl (by show (y 1).val + 1024 = 1 * 1024 + (i 1).val; omega),
    gate_at H 0 (ix8_3 y) rfl (by show (y 1).val = 0 * 1024 + (i 1).val; omega),
    gate_at H 3 (ix8_4 y) rfl (by show (y 1).val + 3072 = 3 * 1024 + (i 1).val; omega),
    e2, H.old_c]
  rfl

/-- The cell-state block at y is the new cell state at i. -/
theorem cell_block (H : SitsAt h c x a Wh Wx Wa bl bl2 bl3 bp P0 P1 P2 P3 P4 P5 P6 P7 y i) :
    E9 (F := Ideal) P0 P1 P2 P3 P4 P5 P6 P7 y = cell h c x a Wh Wx Wa bl bl2 bl3 bp i := by
  have hc := H.col
  have e1 : ix9_1 y = y := funext fun d => by match d with | ⟨0, _⟩ => rfl | ⟨1, _⟩ => rfl
  unfold E9
  rw [gate_at H 1 (ix9_0 y) rfl (by show (y 1).val + 1024 = 1 * 1024 + (i 1).val; omega),
    gate_at H 0 (ix9_2 y) rfl (by show (y 1).val = 0 * 1024 + (i 1).val; omega),
    gate_at H 3 (ix9_3 y) rfl (by show (y 1).val + 3072 = 3 * 1024 + (i 1).val; omega),
    e1, H.old_c]
  rfl

end Cert.Lstm.Block

end
-- ==== Proof.HostPrep.lean ====
/-
  The arrays the host prepares for the kernel's call, read at an index.

  Each stacked weight W of shape 4 × 1024 × K is handed to the kernel as the K × 4096 matrix whose entry
  (k, g·1024 + o) is W(g, o, k): the contracted axis is moved to the front and the gate and unit axes are merged,
  gate major.  (The narrowing to bf16 is the identity on exact values.)  The four 4 × 1024 biases are added,
  ((bl + bl2) + bl3) + bp, and handed over as the 1 × 4096 row whose entry g·1024 + o is that sum at (g, o).
-/
import proofs.«124917_j83150566850652_1_alg».proof.Proof.Gen.KernelIdeal.Frame
import proofs.«124917_j83150566850652_1_alg».proof.Proof.LstmSpec
import Idealize.ShloMosaic.Lib.Pipeline.Value
import Idealize.ShloMosaic.Lib.StableHlo.Run

noncomputable section

open scoped BigOperators

namespace Cert.Lstm.Prep

open Cert.KernelIdeal Cert.KernelIdeal.Gen Cert.Lstm
open Idealize.ShloMosaic Idealize.ShloMosaic.TcCoe Idealize.ShloMosaic.ValueIdx Idealize.SL.Sem

variable (m : (ℓ : Loc nD τ sig) → Buf (Elt Ideal) ℓ) (c : Dev nD)

/-- The flat whr-weights as the kernel's call finds them: the stacked weights with the contracted axis moved to the
    front, the two other axes merged, and narrowed to bf16. -/
theorem whr_term : (V m c main_v2 : S1024x4096.Idx → EReal) =
    (truncf .bf16 (shapeCast S1024x4096 (transpose S1024x4x1024 [2, 0, 1] (m ((c : Thread nD τ).loc main_arg4)) transposes_S4x1024x1024_S1024x4x1024_2_0_1 : FVec Ideal S1024x4x1024 .f32)
      shapeCasts_S1024x4x1024_S1024x4096 : FVec Ideal S1024x4096 .f32) bitsLt_bf16_f32 : FVec Ideal S1024x4096 .bf16) := by
  dsimp only [V, hostOps0]; after_results; rfl

/-- Column g·1024 + o of the flat whr-weights, at row k, is the stacked weight (g, o, k). -/
theorem whr_apply (k : Fin 1024) (n : Fin 4096) (g : Fin 4) (o : Fin 1024) (hn : n.val = g.val * 1024 + o.val) :
    (V m c main_v2 : S1024x4096.Idx → EReal) (ix2 k n) = (m ((c : Thread nD τ).loc main_arg4) : Tab3 4 1024 1024) (ix3 g o k) := by
  have hk : k.val < 1024 := k.isLt
  have hg : g.val < 4 := g.isLt
  have ho : o.val < 1024 := o.isLt
  rw [whr_term]
  show shapeCast S1024x4096 (transpose S1024x4x1024 [2, 0, 1] (m ((c : Thread nD τ).loc main_arg4)) transposes_S4x1024x1024_S1024x4x1024_2_0_1 : FVec Ideal S1024x4x1024 .f32)
      shapeCasts_S1024x4x1024_S1024x4096 (ix2 k n) = _
  rw [shapeCast_apply _ shapeCasts_S1024x4x1024_S1024x4096 (ix2 k n) (ix3 k g o)
    (by rewrite [Shape.rowMajor_val_three, Shape.rowMajor_val_two]
        show (k.val * 4 + g.val) * 1024 + o.val = k.val * 4096 + n.val
        omega)]
  exact transpose_apply [2, 0, 1] _ transposes_S4x1024x1024_S1024x4x1024_2_0_1 (ix3 k g o) (ix3 g o k) (fun b => match b with
    | ⟨0, _⟩ => rfl
    | ⟨1, _⟩ => rfl
    | ⟨2, _⟩ => rfl)

/-- The flat wxr-weights as the kernel's call finds them: the stacked weights with the contracted axis moved to the
    front, the two other axes merged, and narrowed to bf16. -/
theorem wxr_term : (V m c main_v5 : S300x4096.Idx → EReal) =
    (truncf .bf16 (shapeCast S300x4096 (transpose S300x4x1024 [2, 0, 1] (m ((c : Thread nD τ).loc main_arg5)) transposes_S4x1024x300_S300x4x1024_2_0_1 : FVec Ideal S300x4x1024 .f32)
      shapeCasts_S300x4x1024_S300x4096 : FVec Ideal S300x4096 .f32) bitsLt_bf16_f32 : FVec Ideal S300x4096 .bf16) := by
  dsimp only [V, hostOps0]; after_results; rfl

/-- Column g·1024 + o of the flat wxr-weights, at row k, is the stacked weight (g, o, k). -/
theorem wxr_apply (k : Fin 300) (n : Fin 4096) (g : Fin 4) (o : Fin 1024) (hn : n.val = g.val * 1024 + o.val) :
    (V m c main_v5 : S300x4096.Idx → EReal) (ix2 k n) = (m ((c : Thread nD τ).loc main_arg5) : Tab3 4 1024 300) (ix3 g o k) := by
  have hk : k.val < 300 := k.isLt
  have hg : g.val < 4 := g.isLt
  have ho : o.val < 1024 := o.isLt
  rw [wxr_term]
  show shapeCast S300x4096 (transpose S300x4x1024 [2, 0, 1] (m ((c : Thread nD τ).loc main_arg5)) transposes_S4x1024x300_S300x4x1024_2_0_1 : FVec Ideal S300x4x1024 .f32)
      shapeCasts_S300x4x1024_S300x4096 (ix2 k n) = _
  rw [shapeCast_apply _ shapeCasts_S300x4x1024_S300x4096 (ix2 k n) (ix3 k g o)
    (by rewrite [Shape.rowMajor_val_three, Shape.rowMajor_val_two]
        show (k.val * 4 + g.val) * 1024 + o.val = k.val * 4096 + n.val
        omega)]
  exact transpose_apply [2, 0, 1] _ transposes_S4x1024x300_S300x4x1024_2_0_1 (ix3 k g o) (ix3 g o k) (fun b => match b with
    | ⟨0, _⟩ => rfl
    | ⟨1, _⟩ => rfl
    | ⟨2, _⟩ => rfl)

/-- The flat war-weights as the kernel's call finds them: the stacked weights with the contracted axis moved to the
    front, the two other axes merged, and narrowed to bf16. -/
theorem war_term : (V m c main_v8 : S512x4096.Idx → EReal) =
    (truncf .bf16 (shapeCast S512x4096 (transpose S512x4x1024 [2, 0, 1] (m ((c : Thread nD τ).loc main_arg6)) transposes_S4x1024x512_S512x4x1024_2_0_1 : FVec Ideal S512x4x1024 .f32)
      shapeCasts_S512x4x1024_S512x4096 : FVec Ideal S512x4096 .f32) bitsLt_bf16_f32 : FVec Ideal S512x4096 .bf16) := by
  dsimp only [V, hostOps0]; after_results; rfl

/-- Column g·1024 + o of the flat war-weights, at row k, is the stacked weight (g, o, k). -/
theorem war_apply (k : Fin 512) (n : Fin 4096) (g : Fin 4) (o : Fin 1024) (hn : n.val = g.val * 1024 + o.val) :
    (V m c main_v8 : S512x4096.Idx → EReal) (ix2 k n) = (m ((c : Thread nD τ).loc main_arg6) : Tab3 4 1024 512) (ix3 g o k) := by
  have hk : k.val < 512 := k.isLt
  have hg : g.val < 4 := g.isLt
  have ho : o.val < 1024 := o.isLt
  rw [war_term]
  show shapeCast S512x4096 (transpose S512x4x1024 [2, 0, 1] (m ((c : Thread nD τ).loc main_arg6)) transposes_S4x1024x512_S512x4x1024_2_0_1 : FVec Ideal S512x4x1024 .f32)
      shapeCasts_S512x4x1024_S512x4096 (ix2 k n) = _
  rw [shapeCast_apply _ shapeCasts_S512x4x1024_S512x4096 (ix2 k n) (ix3 k g o)
    (by rewrite [Shape.rowMajor_val_three, Shape.rowMajor_val_two]
        show (k.val * 4 + g.val) * 1024 + o.val = k.val * 4096 + n.val
        omega)]
  exact transpose_apply [2, 0, 1] _ transposes_S4x1024x512_S512x4x1024_2_0_1 (ix3 k g o) (ix3 g o k) (fun b => match b with
    | ⟨0, _⟩ => rfl
    | ⟨1, _⟩ => rfl
    | ⟨2, _⟩ => rfl)

/-- The flat bias as the kernel's call finds it: the four biases added left to right, then flattened to one row. -/
theorem bias_term : (V m c main_v12 : S1x4096.Idx → EReal) =
    (shapeCast S1x4096 (addf (addf (addf (m ((c : Thread nD τ).loc main_arg7)) (m ((c : Thread nD τ).loc main_arg8)) : FVec Ideal S4x1024 .f32)
      (m ((c : Thread nD τ).loc main_arg9)) : FVec Ideal S4x1024 .f32) (m ((c : Thread nD τ).loc main_arg10)) : FVec Ideal S4x1024 .f32)
      shapeCasts_S4x1024_S1x4096 : FVec Ideal S1x4096 .f32) := by
  dsimp only [V, hostOps0]; after_results; rfl

/-- Entry g·1024 + o of the flat bias is the bias sum at (g, o). -/
theorem bias_apply (n : Fin 4096) (g : Fin 4) (o : Fin 1024) (hn : n.val = g.val * 1024 + o.val) :
    (V m c main_v12 : S1x4096.Idx → EReal) (ix2 0 n) =
      biasSum (m ((c : Thread nD τ).loc main_arg7)) (m ((c : Thread nD τ).loc main_arg8)) (m ((c : Thread nD τ).loc main_arg9))
        (m ((c : Thread nD τ).loc main_arg10)) g o := by
  have hg : g.val < 4 := g.isLt
  have ho : o.val < 1024 := o.isLt
  rw [bias_term]
  rw [shapeCast_apply _ shapeCasts_S4x1024_S1x4096 (ix2 0 n) (ix2 g o)
    (by rewrite [Shape.rowMajor_val_two, Shape.rowMajor_val_two]
        show g.val * 1024 + o.val = 0 * 4096 + n.val
        omega)]
  rfl

end Cert.Lstm.Prep

end
-- ==== Proof.Whole.lean ====
/-
  From blocks to arrays: after the kernel's run its two result arrays are the new hidden and cell states.

  The grid has 64 points; point t reads rows 128·t … 128·t + 127 of h, c, x and a, the whole of the three flat
  weight matrices and of the flat bias, and writes rows 128·t … 128·t + 127 of the two results.  So block index
  (y0, y1) of every row-blocked window at point t is array index (128·t + y0, y1), and the weights' and the bias'
  blocks are the arrays themselves.  With GateBlock this makes what point t writes back the restriction of the new
  hidden (cell) state to its block; row r lies in the block of point r / 128, so the blocks cover the arrays and the
  arrays end holding the new states.
-/
import proofs.«124917_j83150566850652_1_alg».proof.Proof.Gen.KernelIdeal.Value
import proofs.«124917_j83150566850652_1_alg».proof.Proof.GateBlock
import proofs.«124917_j83150566850652_1_alg».proof.Proof.HostPrep

set_option maxRecDepth 16384

noncomputable section

open scoped BigOperators

namespace Cert.Lstm.Whole

open Cert.KernelIdeal Cert.KernelIdeal.Gen Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new hidden state of the arrays the program was launched with. -/
abbrev Hnew (c : Dev nD) : S8192x1024.Idx → EReal := hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The new cell state of the arrays the program was launched with. -/
abbrev Cnew (c : Dev nD) : S8192x1024.Idx → EReal := cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem hz : (![0, 0] : Fin 2 → Nat) = fun _ => 0 := funext fun a => by fin_cases a <;> rfl

/-- The block index maps, decided over the 64 grid points: the row-blocked windows (h, c, x, a and both results) are at
    block (t, 0) at point t, the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Block index y of point t's blocks sits at the array index it has in output 8's block t. -/
theorem sits8 (c : Dev nD) (t : Fin cfg0.N) (y : S128x1024.Idx) :
    Block.SitsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (iblk m c 0 t) (iblk m c 2 t) (iblk m c 3 t) (iblk m c 4 t) (iblk m c 5 t) (iblk m c 6 t) (iblk m c 7 t) (iblk m c 1 t) y (((cfg0.win 8).blk t).view.emb y) := by
  obtain ⟨e00, e01, e10, e11, e20, e21, e30, e31, e40, e41, e50, e51, e60, e61, e70, e71, e80, e81, e90, e91⟩ := idx_facts t
  have hy0 : (y 0).val < 128 := (y 0).isLt
  have hy1 : (y 1).val < 1024 := (y 1).isLt
  have hcol : ((((cfg0.win 8).blk t).view.emb y) 1).val = (y 1).val := by
    show win0_8.index t (1 : Fin 2) * 1024 + 1 * (y 1).val = (y 1).val; omega
  have hrow : ((((cfg0.win 8).blk t).view.emb y) 0).val = win0_8.index t (0 : Fin 2) * 128 + 1 * (y 0).val := by
    show win0_8.index t (0 : Fin 2) * 128 + 1 * (y 0).val = _; omega
  have ecol : (((cfg0.win 8).blk t).view.emb y) 1 = y 1 := Fin.ext hcol
  exact {
    col := hcol.symm
    row_h := fun k => by
      show V m c main_arg0 (((cfg0.win 0).blk t).view.emb (ix2 (y 0) k)) = _
      rw [V_main_arg0]
      refine congrArg _ (funext fun d => Fin.ext ?_)
      match d with
      | ⟨0, _⟩ => show win0_0.index t (0 : Fin 2) * 128 + 1 * (y 0).val = ((((cfg0.win 8).blk t).view.emb y) 0).val; omega
      | ⟨1, _⟩ => show win0_0.index t (1 : Fin 2) * 1024 + 1 * k.val = k.val; omega
    row_x := fun k => by
      show V m c main_arg2 (((cfg0.win 2).blk t).view.emb (ix2 (y 0) k)) = _
      rw [V_main_arg2]
      refine congrArg _ (funext fun d => Fin.ext ?_)
      match d with
      | ⟨0, _⟩ => show win0_2.index t (0 : Fin 2) * 128 + 1 * (y 0).val = ((((cfg0.win 8).blk t).view.emb y) 0).val; omega
      | ⟨1, _⟩ => show win0_2.index t (1 : Fin 2) * 300 + 1 * k.val = k.val; omega
    row_a := fun k => by
      show V m c main_arg3 (((cfg0.win 3).blk t).view.emb (ix2 (y 0) k)) = _
      rw [V_main_arg3]
      refine congrArg _ (funext fun d => Fin.ext ?_)
      match d with
      | ⟨0, _⟩ => show win0_3.index t (0 : Fin 2) * 128 + 1 * (y 0).val = ((((cfg0.win 8).blk t).view.emb y) 0).val; omega
      | ⟨1, _⟩ => show win0_3.index t (1 : Fin 2) * 512 + 1 * k.val = k.val; omega
    old_c := by
      show V m c main_arg1 (((cfg0.win 1).blk t).view.emb y) = _
      rw [V_main_arg1]
      refine congrArg _ (funext fun d => Fin.ext ?_)
      match d with
      | ⟨0, _⟩ => show win0_1.index t (0 : Fin 2) * 128 + 1 * (y 0).val = ((((cfg0.win 8).blk t).view.emb y) 0).val; omega
      | ⟨1, _⟩ => show win0_1.index t (1 : Fin 2) * 1024 + 1 * (y 1).val = ((((cfg0.win 8).blk t).view.emb y) 1).val; omega
    w_h := fun g n hn k => by
      show V m c main_v2 (((cfg0.win 4).blk t).view.emb (ix2 k n)) = _
      have e : ((cfg0.win 4).blk t).view.emb (ix2 k n) = ix2 k n := funext fun d => Fin.ext (by
        match d with
        | ⟨0, _⟩ => show win0_4.index t (0 : Fin 2) * 1024 + 1 * k.val = k.val; omega
        | ⟨1, _⟩ => show win0_4.index t (1 : Fin 2) * 4096 + 1 * n.val = n.val; omega)
      rw [e]
      exact Prep.whr_apply m c k n g _ hn
    w_x := fun g n hn k => by
      show V m c main_v5 (((cfg0.win 5).blk t).view.emb (ix2 k n)) = _
      have e : ((cfg0.win 5).blk t).view.emb (ix2 k n) = ix2 k n := funext fun d => Fin.ext (by
        match d with
        | ⟨0, _⟩ => show win0_5.index t (0 : Fin 2) * 300 + 1 * k.val = k.val; omega
        | ⟨1, _⟩ => show win0_5.index t (1 : Fin 2) * 4096 + 1 * n.val = n.val; omega)
      rw [e]
      exact Prep.wxr_apply m c k n g _ hn
    w_a := fun g n hn k => by
      show V m c main_v8 (((cfg0.win 6).blk t).view.emb (ix2 k n)) = _
      have e : ((cfg0.win 6).blk t).view.emb (ix2 k n) = ix2 k n := funext fun d => Fin.ext (by
        match d with
        | ⟨0, _⟩ => show win0_6.index t (0 : Fin 2) * 512 + 1 * k.val = k.val; omega
        | ⟨1, _⟩ => show win0_6.index t (1 : Fin 2) * 4096 + 1 * n.val = n.val; omega)
      rw [e]
      exact Prep.war_apply m c k n g _ hn
    bias := fun g n hn => by
      show V m c main_v12 (((cfg0.win 7).blk t).view.emb (ix2 0 n)) = _
      have e : ((cfg0.win 7).blk t).view.emb (ix2 0 n) = ix2 0 n := funext fun d => Fin.ext (by
        match d with
        | ⟨0, _⟩ => show win0_7.index t (0 : Fin 2) * 1 + 1 * 0 = 0; omega
        | ⟨1, _⟩ => show win0_7.index t (1 : Fin 2) * 4096 + 1 * n.val = n.val; omega)
      rw [e]
      exact Prep.bias_apply m c n g _ hn }

/-- Block index y of point t's blocks sits at the array index it has in output 9's block t. -/
theorem sits9 (c : Dev nD) (t : Fin cfg0.N) (y : S128x1024.Idx) :
    Block.SitsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (iblk m c 0 t) (iblk m c 2 t) (iblk m c 3 t) (iblk m c 4 t) (iblk m c 5 t) (iblk m c 6 t) (iblk m c 7 t) (iblk m c 1 t) y (((cfg0.win 9).blk t).view.emb y) := by
  obtain ⟨e00, e01, e10, e11, e20, e21, e30, e31, e40, e41, e50, e51, e60, e61, e70, e71, e80, e81, e90, e91⟩ := idx_facts t
  have hy0 : (y 0).val < 128 := (y 0).isLt
  have hy1 : (y 1).val < 1024 := (y 1).isLt
  have hcol : ((((cfg0.win 9).blk t).view.emb y) 1).val = (y 1).val := by
    show win0_9.index t (1 : Fin 2) * 1024 + 1 * (y 1).val = (y 1).val; omega
  have hrow : ((((cfg0.win 9).blk t).view.emb y) 0).val = win0_8.index t (0 : Fin 2) * 128 + 1 * (y 0).val := by
    show win0_9.index t (0 : Fin 2) * 128 + 1 * (y 0).val = _; omega
  have ecol : (((cfg0.win 9).blk t).view.emb y) 1 = y 1 := Fin.ext hcol
  exact {
    col := hcol.symm
    row_h := fun k => by
      show V m c main_arg0 (((cfg0.win 0).blk t).view.emb (ix2 (y 0) k)) = _
      rw [V_main_arg0]
      refine congrArg _ (funext fun d => Fin.ext ?_)
      match d with
      | ⟨0, _⟩ => show win0_0.index t (0 : Fin 2) * 128 + 1 * (y 0).val = ((((cfg0.win 9).blk t).view.emb y) 0).val; omega
      | ⟨1, _⟩ => show win0_0.index t (1 : Fin 2) * 1024 + 1 * k.val = k.val; omega
    row_x := fun k => by
      show V m c main_arg2 (((cfg0.win 2).blk t).view.emb (ix2 (y 0) k)) = _
      rw [V_main_arg2]
      refine congrArg _ (funext fun d => Fin.ext ?_)
      match d with
      | ⟨0, _⟩ => show win0_2.index t (0 : Fin 2) * 128 + 1 * (y 0).val = ((((cfg0.win 9).blk t).view.emb y) 0).val; omega
      | ⟨1, _⟩ => show win0_2.index t (1 : Fin 2) * 300 + 1 * k.val = k.val; omega
    row_a := fun k => by
      show V m c main_arg3 (((cfg0.win 3).blk t).view.emb (ix2 (y 0) k)) = _
      rw [V_main_arg3]
      refine congrArg _ (funext fun d => Fin.ext ?_)
      match d with
      | ⟨0, _⟩ => show win0_3.index t (0 : Fin 2) * 128 + 1 * (y 0).val = ((((cfg0.win 9).blk t).view.emb y) 0).val; omega
      | ⟨1, _⟩ => show win0_3.index t (1 : Fin 2) * 512 + 1 * k.val = k.val; omega
    old_c := by
      show V m c main_arg1 (((cfg0.win 1).blk t).view.emb y) = _
      rw [V_main_arg1]
      refine congrArg _ (funext fun d => Fin.ext ?_)
      match d with
      | ⟨0, _⟩ => show win0_1.index t (0 : Fin 2) * 128 + 1 * (y 0).val = ((((cfg0.win 9).blk t).view.emb y) 0).val; omega
      | ⟨1, _⟩ => show win0_1.index t (1 : Fin 2) * 1024 + 1 * (y 1).val = ((((cfg0.win 9).blk t).view.emb y) 1).val; omega
    w_h := fun g n hn k => by
      show V m c main_v2 (((cfg0.win 4).blk t).view.emb (ix2 k n)) = _
      have e : ((cfg0.win 4).blk t).view.emb (ix2 k n) = ix2 k n := funext fun d => Fin.ext (by
        match d with
        | ⟨0, _⟩ => show win0_4.index t (0 : Fin 2) * 1024 + 1 * k.val = k.val; omega
        | ⟨1, _⟩ => show win0_4.index t (1 : Fin 2) * 4096 + 1 * n.val = n.val; omega)
      rw [e]
      exact Prep.whr_apply m c k n g _ hn
    w_x := fun g n hn k => by
      show V m c main_v5 (((cfg0.win 5).blk t).view.emb (ix2 k n)) = _
      have e : ((cfg0.win 5).blk t).view.emb (ix2 k n) = ix2 k n := funext fun d => Fin.ext (by
        match d with
        | ⟨0, _⟩ => show win0_5.index t (0 : Fin 2) * 300 + 1 * k.val = k.val; omega
        | ⟨1, _⟩ => show win0_5.index t (1 : Fin 2) * 4096 + 1 * n.val = n.val; omega)
      rw [e]
      exact Prep.wxr_apply m c k n g _ hn
    w_a := fun g n hn k => by
      show V m c main_v8 (((cfg0.win 6).blk t).view.emb (ix2 k n)) = _
      have e : ((cfg0.win 6).blk t).view.emb (ix2 k n) = ix2 k n := funext fun d => Fin.ext (by
        match d with
        | ⟨0, _⟩ => show win0_6.index t (0 : Fin 2) * 512 + 1 * k.val = k.val; omega
        | ⟨1, _⟩ => show win0_6.index t (1 : Fin 2) * 4096 + 1 * n.val = n.val; omega)
      rw [e]
      exact Prep.war_apply m c k n g _ hn
    bias := fun g n hn => by
      show V m c main_v12 (((cfg0.win 7).blk t).view.emb (ix2 0 n)) = _
      have e : ((cfg0.win 7).blk t).view.emb (ix2 0 n) = ix2 0 n := funext fun d => Fin.ext (by
        match d with
        | ⟨0, _⟩ => show win0_7.index t (0 : Fin 2) * 1 + 1 * 0 = 0; omega
        | ⟨1, _⟩ => show win0_7.index t (1 : Fin 2) * 4096 + 1 * n.val = n.val; omega)
      rw [e]
      exact Prep.bias_apply m c n g _ hn }

/-- What point t writes back to output 8 is block t of the new hidden state. -/
theorem flushed8_eq (c : Dev nD) (t : Fin cfg0.N) :
    (dats m 0 c).flushed 8 t = ((cfg0.win 8).blk t).view.read (Elt Ideal) (Hnew m c) := by
  rw [Value.flushed8]
  unfold out0_8
  simp only [View.ld_unit_zero (S := S128x1024) hz, View.ld_unit_zero (S := S128x300) hz, View.ld_unit_zero (S := S128x512) hz,
    View.ld_unit_zero (S := S1024x4096) hz, View.ld_unit_zero (S := S300x4096) hz, View.ld_unit_zero (S := S512x4096) hz,
    View.ld_unit_zero (S := S1x4096) hz]
  funext y
  show View.canon ([⟨r0_0, k0_pay3 (F := Ideal) (iblk m c 0 t) (iblk m c 2 t) (iblk m c 3 t) (iblk m c 1 t) (iblk m c 4 t) (iblk m c 5 t) (iblk m c 6 t) (iblk m c 7 t)⟩] : List (View.Piece (Elt Ideal) S128x1024 .f32)) y
    = Hnew m c (((cfg0.win 8).blk t).view.emb y)
  refine (Value.canon8_eq (F := Ideal) (iblk m c 0 t) (iblk m c 2 t) (iblk m c 3 t) (iblk m c 4 t) (iblk m c 5 t) (iblk m c 6 t) (iblk m c 7 t) (iblk m c 1 t) y).trans ?_
  exact Block.hidden_block (sits8 m c t y)

/-- What point t writes back to output 9 is block t of the new cell state. -/
theorem flushed9_eq (c : Dev nD) (t : Fin cfg0.N) :
    (dats m 0 c).flushed 9 t = ((cfg0.win 9).blk t).view.read (Elt Ideal) (Cnew m c) := by
  rw [Value.flushed9]
  unfold out0_9
  simp only [View.ld_unit_zero (S := S128x1024) hz, View.ld_unit_zero (S := S128x300) hz, View.ld_unit_zero (S := S128x512) hz,
    View.ld_unit_zero (S := S1024x4096) hz, View.ld_unit_zero (S := S300x4096) hz, View.ld_unit_zero (S := S512x4096) hz,
    View.ld_unit_zero (S := S1x4096) hz]
  funext y
  show View.canon ([⟨r0_0, k0_pay2 (F := Ideal) (iblk m c 0 t) (iblk m c 2 t) (iblk m c 3 t) (iblk m c 1 t) (iblk m c 4 t) (iblk m c 5 t) (iblk m c 6 t) (iblk m c 7 t)⟩] : List (View.Piece (Elt Ideal) S128x1024 .f32)) y
    = Cnew m c (((cfg0.win 9).blk t).view.emb y)
  refine (Value.canon9_eq (F := Ideal) (iblk m c 0 t) (iblk m c 2 t) (iblk m c 3 t) (iblk m c 4 t) (iblk m c 5 t) (iblk m c 6 t) (iblk m c 7 t) (iblk m c 1 t) y).trans ?_
  exact Block.cell_block (sits9 m c t y)

/-- An index of the array is in point t's block of output 8 iff each coordinate is in the block's range on its axis. -/
theorem mem_blk8 (t : Fin cfg0.N) (i : S8192x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v13_0).slice (win0_8.rect t)).set ↔ _
  rw [View.set_slice_whole, Rect.mem_set_unit]
  exact Iff.rfl

/-- Every index of the array is in some point's block of output 8: row r is in the block of point r / 128. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have ht : (i 0).val / 128 < cfg0.N := by show (i 0).val / 128 < 64; omega
  obtain ⟨-, -, -, -, -, -, -, -, -, -, -, -, -, -, -, -, e80, e81, e90, e91⟩ := idx_facts ⟨(i 0).val / 128, ht⟩
  refine ⟨⟨(i 0).val / 128, ht⟩, flush0_8 _, ?_⟩
  rw [mem_blk8]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    rw [e80]; show (i 0).val / 128 * 128 ≤ (i 0).val ∧ (i 0).val < (i 0).val / 128 * 128 + 128; omega
  | ⟨1, _⟩ =>
    show win0_8.index ⟨(i 0).val / 128, ht⟩ (1 : Fin 2) * 1024 ≤ (i 1).val ∧ (i 1).val < win0_8.index ⟨(i 0).val / 128, ht⟩ (1 : Fin 2) * 1024 + 1024
    rw [e81]; omega

/-- An index of the array is in point t's block of output 9 iff each coordinate is in the block's range on its axis. -/
theorem mem_blk9 (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v13_1).slice (win0_9.rect t)).set ↔ _
  rw [View.set_slice_whole, Rect.mem_set_unit]
  exact Iff.rfl

/-- Every index of the array is in some point's block of output 9: row r is in the block of point r / 128. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have ht : (i 0).val / 128 < cfg0.N := by show (i 0).val / 128 < 64; omega
  obtain ⟨-, -, -, -, -, -, -, -, -, -, -, -, -, -, -, -, e80, e81, e90, e91⟩ := idx_facts ⟨(i 0).val / 128, ht⟩
  refine ⟨⟨(i 0).val / 128, ht⟩, flush0_9 _, ?_⟩
  rw [mem_blk9]
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    rw [e90]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val ∧ (i 1).val < win0_9.index ⟨(i 0).val / 128, ht⟩ (1 : Fin 2) * 1024 + 1024
    rw [e91]; omega

/-- After the run the first result array is the new hidden state. -/
theorem final8 (c : Dev nD) : (dats m 0 c).arrAt 8 cfg0.N = Hnew m c :=
  (dats m 0 c).arrAt_eq_of_cover 8 (Hnew m c) (fun t _ => flushed8_eq m c t) cover8

/-- After the run the second result array is the new cell state. -/
theorem final9 (c : Dev nD) : (dats m 0 c).arrAt 9 cfg0.N = Cnew m c :=
  (dats m 0 c).arrAt_eq_of_cover 9 (Cnew m c) (fun t _ => flushed9_eq m c t) cover9

/-- The kernel program's run: it terminates with the two results at the new hidden and cell states of the arguments,
    and the arguments unchanged. -/
theorem run : θ_run defs (onTc (τ := τ) (main (F := Ideal))) ⟨m, fun _ => 0, ρ⟩ fun r => ∀ c : Dev nD,
      r.2.mem ((c : Thread nD τ).loc main_v13_0) = Hnew m c
      ∧ r.2.mem ((c : Thread nD τ).loc main_v13_1) = Cnew m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final8 m c), (h c).2.1.trans (final9 m c), (h c).2.2⟩)
    (Value.run_blocks m ρ)

end Cert.Lstm.Whole

end
-- ==== Proof.RefCell.lean ====
/-
  The reference program read index by index: it computes the LSTM step of LstmSpec.

  Its three contractions h·Wh, x·Wx, a·Wa over the last axis of each stacked weight give an 8192 × 4 × 1024 array; adding
  them left to right and then the four biases (spread over the batch axis) gives the pre-activation `pre`.  Gate g is
  the slice at position g of the middle axis with that axis dropped.  The sigmoid is spelled 1 / (1 + e^(-y)), which
  is the logistic function by its definition, at every extended real.  The cell and hidden states are then the
  pointwise combinations of LstmSpec.
-/
import proofs.«124917_j83150566850652_1_alg».proof.Proof.Gen.ReferenceIdeal.Read
import proofs.«124917_j83150566850652_1_alg».proof.Proof.LstmSpec

noncomputable section

open scoped BigOperators

namespace Cert.Lstm.Ref

open Cert.ReferenceIdeal Cert.ReferenceIdeal.Gen Cert.ReferenceIdeal.Read Cert.Lstm
open Idealize.ShloMosaic Idealize.ShloMosaic.ValueIdx

variable (x0 x1 : (⟨S8192x1024, .f32⟩ : BufTy).Contents (Elt Ideal)) (x2 : (⟨S8192x300, .f32⟩ : BufTy).Contents (Elt Ideal))
  (x3 : (⟨S8192x512, .f32⟩ : BufTy).Contents (Elt Ideal)) (x4 : (⟨S4x1024x1024, .f32⟩ : BufTy).Contents (Elt Ideal))
  (x5 : (⟨S4x1024x300, .f32⟩ : BufTy).Contents (Elt Ideal)) (x6 : (⟨S4x1024x512, .f32⟩ : BufTy).Contents (Elt Ideal))
  (x7 x8 x9 x10 : (⟨S4x1024, .f32⟩ : BufTy).Contents (Elt Ideal))

/-- The sum of the three contractions and the spread biases, at (b, g, o), is the pre-activation. -/
theorem pre_read (i : S8192x4x1024.Idx) :
    val_main_v10 (F := Ideal) x0 x2 x3 x4 x5 x6 x7 x8 x9 x10 i = pre x0 x2 x3 x4 x5 x6 x7 x8 x9 x10 (i 0) (i 1) (i 2) := by
  have el0 : ∀ k, lidx_main_v0 i k = ix2 (i 0) k := fun k => funext fun a => by
    match a with | ⟨0, _⟩ => rfl | ⟨1, _⟩ => rfl
  have er0 : ∀ k, ridx_main_v0 i k = ix3 (i 1) (i 2) k := fun k => funext fun a => by
    match a with | ⟨0, _⟩ => rfl | ⟨1, _⟩ => rfl | ⟨2, _⟩ => rfl
  have el1 : ∀ k, lidx_main_v1 i k = ix2 (i 0) k := fun k => funext fun a => by
    match a with | ⟨0, _⟩ => rfl | ⟨1, _⟩ => rfl
  have er1 : ∀ k, ridx_main_v1 i k = ix3 (i 1) (i 2) k := fun k => funext fun a => by
    match a with | ⟨0, _⟩ => rfl | ⟨1, _⟩ => rfl | ⟨2, _⟩ => rfl
  have el3 : ∀ k, lidx_main_v3 i k = ix2 (i 0) k := fun k => funext fun a => by
    match a with | ⟨0, _⟩ => rfl | ⟨1, _⟩ => rfl
  have er3 : ∀ k, ridx_main_v3 i k = ix3 (i 1) (i 2) k := fun k => funext fun a => by
    match a with | ⟨0, _⟩ => rfl | ⟨1, _⟩ => rfl | ⟨2, _⟩ => rfl
  have eb : idx_main_v8 (idx_main_v9 i) = ix2 (i 1) (i 2) := funext fun a => by
    match a with | ⟨0, _⟩ => rfl | ⟨1, _⟩ => rfl
  rw [val_main_v10_apply, val_main_v4_apply, val_main_v2_apply, val_main_v0_apply, val_main_v1_apply, val_main_v3_apply,
    val_main_v9_apply, val_main_v8_apply, val_main_v7_apply, val_main_v6_apply, val_main_v5_apply]
  simp only [el0, er0, el1, er1, el3, er3, eb]
  rfl

/-- The same at named coordinates. -/
theorem pre_read_at (i : S8192x4x1024.Idx) (b : Fin 8192) (g : Fin 4) (o : Fin 1024) (hb : i 0 = b) (hg : i 1 = g) (ho : i 2 = o) :
    val_main_v10 (F := Ideal) x0 x2 x3 x4 x5 x6 x7 x8 x9 x10 i = pre x0 x2 x3 x4 x5 x6 x7 x8 x9 x10 b g o := by
  subst hb hg ho
  exact pre_read x0 x2 x3 x4 x5 x6 x7 x8 x9 x10 i

/-- The reference's slice of gate 0, with its unit axis dropped, reads the pre-activation at gate 0. -/
theorem slice0 (i : S8192x1024.Idx) :
    val_main_v12 (F := Ideal) x0 x2 x3 x4 x5 x6 x7 x8 x9 x10 i = pre x0 x2 x3 x4 x5 x6 x7 x8 x9 x10 (i 0) 0 (i 1) := by
  have h0 : (i 0).val < 8192 := (i 0).isLt
  have h1 : (i 1).val < 1024 := (i 1).isLt
  rw [val_main_v12_apply, val_main_v11_apply]
  exact pre_read_at x0 x2 x3 x4 x5 x6 x7 x8 x9 x10 _ _ _ _
    (Fin.ext (by show ((i 0).val * 1024 + (i 1).val) / 1024 = (i 0).val; omega))
    (Fin.ext (by show (0 : Nat) = 0; rfl))
    (Fin.ext (by show ((i 0).val * 1024 + (i 1).val) % 1024 = (i 1).val; omega))

/-- The reference's slice of gate 1, with its unit axis dropped, reads the pre-activation at gate 1. -/
theorem slice1 (i : S8192x1024.Idx) :
    val_main_v20 (F := Ideal) x0 x2 x3 x4 x5 x6 x7 x8 x9 x10 i = pre x0 x2 x3 x4 x5 x6 x7 x8 x9 x10 (i 0) 1 (i 1) := by
  have h0 : (i 0).val < 8192 := (i 0).isLt
  have h1 : (i 1).val < 1024 := (i 1).isLt
  rw [val_main_v20_apply, val_main_v19_apply]
  exact pre_read_at x0 x2 x3 x4 x5 x6 x7 x8 x9 x10 _ _ _ _
    (Fin.ext (by show ((i 0).val * 1024 + (i 1).val) / 1024 = (i 0).val; omega))
    (Fin.ext (by show (1 + 0 : Nat) = 1; rfl))
    (Fin.ext (by show ((i 0).val * 1024 + (i 1).val) % 1024 = (i 1).val; omega))

/-- The reference's slice of gate 2, with its unit axis dropped, reads the pre-activation at gate 2. -/
theorem slice2 (i : S8192x1024.Idx) :
    val_main_v28 (F := Ideal) x0 x2 x3 x4 x5 x6 x7 x8 x9 x10 i = pre x0 x2 x3 x4 x5 x6 x7 x8 x9 x10 (i 0) 2 (i 1) := by
  have h0 : (i 0).val < 8192 := (i 0).isLt
  have h1 : (i 1).val < 1024 := (i 1).isLt
  rw [val_main_v28_apply, val_main_v27_apply]
  exact pre_read_at x0 x2 x3 x4 x5 x6 x7 x8 x9 x10 _ _ _ _
    (Fin.ext (by show ((i 0).val * 1024 + (i 1).val) / 1024 = (i 0).val; omega))
    (Fin.ext (by show (2 + 0 : Nat) = 2; rfl))
    (Fin.ext (by show ((i 0).val * 1024 + (i 1).val) % 1024 = (i 1).val; omega))

/-- The reference's slice of gate 3, with its unit axis dropped, reads the pre-activation at gate 3. -/
theorem slice3 (i : S8192x1024.Idx) :
    val_main_v36 (F := Ideal) x0 x2 x3 x4 x5 x6 x7 x8 x9 x10 i = pre x0 x2 x3 x4 x5 x6 x7 x8 x9 x10 (i 0) 3 (i 1) := by
  have h0 : (i 0).val < 8192 := (i 0).isLt
  have h1 : (i 1).val < 1024 := (i 1).isLt
  rw [val_main_v36_apply, val_main_v35_apply]
  exact pre_read_at x0 x2 x3 x4 x5 x6 x7 x8 x9 x10 _ _ _ _
    (Fin.ext (by show ((i 0).val * 1024 + (i 1).val) / 1024 = (i 0).val; omega))
    (Fin.ext (by show (3 + 0 : Nat) = 3; rfl))
    (Fin.ext (by show ((i 0).val * 1024 + (i 1).val) % 1024 = (i 1).val; omega))

/-- The reference's input gate: the quotient 1 / (1 + e^(-y)) of its pre-activation y is the logistic function of y. -/
theorem sig0 (i : S8192x1024.Idx) :
    val_main_v18 (F := Ideal) x0 x2 x3 x4 x5 x6 x7 x8 x9 x10 i = Ideal.logistic (pre x0 x2 x3 x4 x5 x6 x7 x8 x9 x10 (i 0) 0 (i 1)) := by
  rw [val_main_v18_apply, val_main_v17_apply, val_main_cst_0_apply, val_main_v16_apply, val_main_v15_apply,
    val_main_cst_apply, val_main_v14_apply, val_main_v13_apply, slice0]
  show Ideal.div (Ideal.ofBits .f32 0x3F800000#32) (Ideal.ofBits .f32 0x3F800000#32 + Ideal.exp (-(pre x0 x2 x3 x4 x5 x6 x7 x8 x9 x10 (i 0) 0 (i 1)))) = _
  rw [ofBits_one_f32]
  rfl

/-- The reference's forget gate: the quotient 1 / (1 + e^(-y)) of its pre-activation y is the logistic function of y. -/
theorem sig1 (i : S8192x1024.Idx) :
    val_main_v26 (F := Ideal) x0 x2 x3 x4 x5 x6 x7 x8 x9 x10 i = Ideal.logistic (pre x0 x2 x3 x4 x5 x6 x7 x8 x9 x10 (i 0) 1 (i 1)) := by
  rw [val_main_v26_apply, val_main_v25_apply, val_main_cst_2_apply, val_main_v24_apply, val_main_v23_apply,
    val_main_cst_1_apply, val_main_v22_apply, val_main_v21_apply, slice1]
  show Ideal.div (Ideal.ofBits .f32 0x3F800000#32) (Ideal.ofBits .f32 0x3F800000#32 + Ideal.exp (-(pre x0 x2 x3 x4 x5 x6 x7 x8 x9 x10 (i 0) 1 (i 1)))) = _
  rw [ofBits_one_f32]
  rfl

/-- The reference's output gate: the quotient 1 / (1 + e^(-y)) of its pre-activation y is the logistic function of y. -/
theorem sig2 (i : S8192x1024.Idx) :
    val_main_v34 (F := Ideal) x0 x2 x3 x4 x5 x6 x7 x8 x9 x10 i = Ideal.logistic (pre x0 x2 x3 x4 x5 x6 x7 x8 x9 x10 (i 0) 2 (i 1)) := by
  rw [val_main_v34_apply, val_main_v33_apply, val_main_cst_4_apply, val_main_v32_apply, val_main_v31_apply,
    val_main_cst_3_apply, val_main_v30_apply, val_main_v29_apply, slice2]
  show Ideal.div (Ideal.ofBits .f32 0x3F800000#32) (Ideal.ofBits .f32 0x3F800000#32 + Ideal.exp (-(pre x0 x2 x3 x4 x5 x6 x7 x8 x9 x10 (i 0) 2 (i 1)))) = _
  rw [ofBits_one_f32]
  rfl

/-- The reference's second result is the new cell state. -/
theorem cell_read : val_main_v40 (F := Ideal) x0 x1 x2 x3 x4 x5 x6 x7 x8 x9 x10 = cell x0 x1 x2 x3 x4 x5 x6 x7 x8 x9 x10 := by
  funext i
  rw [val_main_v40_apply, val_main_v38_apply, val_main_v39_apply, val_main_v37_apply, sig1, sig0, slice3]
  rfl

/-- The reference's first result is the new hidden state. -/
theorem hidden_read : val_main_v42 (F := Ideal) x0 x1 x2 x3 x4 x5 x6 x7 x8 x9 x10 = hidden x0 x1 x2 x3 x4 x5 x6 x7 x8 x9 x10 := by
  funext i
  rw [val_main_v42_apply, val_main_v41_apply, sig2, congrFun (cell_read x0 x1 x2 x3 x4 x5 x6 x7 x8 x9 x10) i]
  rfl

end Cert.Lstm.Ref

end
-- ==== Proof.lean ====
/-
  An LSTM cell step computed by a kernel over blocks of 128 batch rows, against the same step computed whole.

  Inputs: h, c (8192 × 1024), x (8192 × 300), a (8192 × 512), the stacked weights Wh, Wx, Wa (4 × 1024 × K, one
  1024 × K matrix per gate) and four biases (4 × 1024).  For batch row b, gate g and hidden unit o the pre-activation is

      pre(b,g,o) = ((Σ_k h(b,k)·Wh(g,o,k) + Σ_k x(b,k)·Wx(g,o,k)) + Σ_k a(b,k)·Wa(g,o,k)) + (((bl + bl2) + bl3) + bp)(g,o),

  and the results are  c'(b,o) = σ(pre(b,1,o))·c(b,o) + σ(pre(b,0,o))·tanh(pre(b,3,o))  and
  h'(b,o) = σ(pre(b,2,o))·tanh(c'(b,o)),  σ the logistic function  (Proof/LstmSpec.lean).

  The reference contracts each input with its stacked weight over the last axis, adds the three results and the biases,
  slices the four gates and spells σ(y) as 1 / (1 + e^(-y)), which is the logistic function by definition, at every
  extended real (Proof/RefCell.lean, over the generated read-at-an-index lemmas of the reference's run).

  The kernel program first lays each stacked weight out flat, K × 4096 with column g·1024 + o holding W(g,o,·), and
  the summed biases as one row of 4096 (Proof/HostPrep.lean); then, for each of 64 blocks of 128 rows, multiplies the
  three input blocks by the flat weights, adds the products in the same order and the bias row, and applies the
  gates to columns o, o + 1024, o + 2048, o + 3072 (Proof/BodyGate.lean, Proof/GateBlock.lean).  A matrix product
  into a zero accumulator is, entry by entry, the same sum as the reference's contraction (Proof/LibRowDot.lean), and
  narrowing an operand to bf16 is the identity on exact values, so each block of the kernel's results is the
  restriction of (h', c') to its rows; the 64 blocks cover the arrays (Proof/Whole.lean).  Both programs add in the
  same order, so no law of the extended reals is used beyond rewriting equal terms, and the precondition (finite inputs)
  is never opened.

  The three frames are the generated ones (the reference's frame is its generated run with the results dropped), and
  the idealization rewrote no operation, so the preservation claim is trivial.
-/
import proofs.«124917_j83150566850652_1_alg».proof.Defs
import proofs.«124917_j83150566850652_1_alg».proof.Proof.Gen.Kernel
import proofs.«124917_j83150566850652_1_alg».proof.Proof.Gen.Kernel.Skeleton
import proofs.«124917_j83150566850652_1_alg».proof.Proof.Gen.Kernel.Launch
import proofs.«124917_j83150566850652_1_alg».proof.Proof.Gen.Kernel.Points
import proofs.«124917_j83150566850652_1_alg».proof.Proof.Gen.Kernel.Frame
import proofs.«124917_j83150566850652_1_alg».proof.Proof.Gen.KernelIdeal
import proofs.«124917_j83150566850652_1_alg».proof.Proof.Gen.KernelIdeal.Skeleton
import proofs.«124917_j83150566850652_1_alg».proof.Proof.Gen.KernelIdeal.Launch
import proofs.«124917_j83150566850652_1_alg».proof.Proof.Gen.KernelIdeal.Points
import proofs.«124917_j83150566850652_1_alg».proof.Proof.Gen.KernelIdeal.Frame
import proofs.«124917_j83150566850652_1_alg».proof.Proof.Gen.ReferenceIdeal
import proofs.«124917_j83150566850652_1_alg».proof.Proof.Gen.Pre_finite_inputs
import proofs.«124917_j83150566850652_1_alg».proof.Proof.Gen.KernelIdeal.Value
import proofs.«124917_j83150566850652_1_alg».proof.Proof.Gen.ReferenceIdeal.Run
import proofs.«124917_j83150566850652_1_alg».proof.Proof.Gen.ReferenceIdeal.Read
import proofs.«124917_j83150566850652_1_alg».proof.Proof.Whole
import proofs.«124917_j83150566850652_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_k : Cert.frame_Kernel := fun m ρ _ => Cert.Kernel.Gen.frame m ρ

/-- So does the kernel program read at the exact values. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel program ends with its two results at the new hidden and cell states of the
    arguments (Whole.run), and the reference ends with its two results at the same functions of its own arguments
    (RefCell), which are the same arguments. -/
theorem algebraic : Cert.algebraic_KernelIdeal_ReferenceIdeal := by
  intro m ρ m' ρ' _ hagree
  refine ⟨fun c => Cert.Lstm.Whole.Hnew m c, fun c => Cert.Lstm.Whole.Cnew m c, Cert.Lstm.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v42_eq, Cert.Lstm.Ref.hidden_read]
    rw [a0, a1, a2, a3, a4, a5, a6, a7, a8, a9, a10]
  · obtain ⟨a0, a1, a2, a3, a4, a5, a6, a7, a8, a9, a10⟩ := hagree c
    show Cert.ReferenceIdeal.Read.val_main_v40 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
    rw [Cert.Lstm.Ref.cell_read]
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
